-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S3200000 : Shape := ⟨1, ![3200000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x128 .f32) (main_arg1 : FVec F S128x64 .f32) (main_arg2 : FVec F S64 .f32) (main_arg3 : IVec S3200000 32) (main_arg4 : IVec S3200000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x128 : Shape := ⟨2, ![100000, 128]⟩
abbrev S128x64 : Shape := ⟨2, ![128, 64]⟩
abbrev S64 : Shape := ⟨1, ![64]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S128 : Shape := ⟨1, ![128]⟩
abbrev S1x128 : Shape := ⟨2, ![1, 128]⟩
abbrev S5000x128 : Shape := ⟨2, ![5000, 128]⟩
abbrev S5000x1 : Shape := ⟨2, ![5000, 1]⟩
abbrev S5000 : Shape := ⟨1, ![5000]⟩
abbrev S3200000x2 : Shape := ⟨2, ![3200000, 2]⟩

abbrev nBuf : Space → Nat
  | .hbm => 60
  | .vmem => 7
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S3200000, .i32⟩
  | .hbm, ⟨4, _⟩ => ⟨S3200000, .i32⟩
  | .hbm, ⟨5, _⟩ => ⟨S_, .f32⟩
  | .hbm, ⟨6, _⟩ => ⟨S3200000, .f32⟩
  | .hbm, ⟨7, _⟩ => ⟨S_, .f32⟩
  | .hbm, ⟨8, _⟩ => ⟨S100000, .f32⟩
  | .hbm, ⟨9, _⟩ => ⟨S3200000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S3200000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000x1, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .f32⟩
  | .hbm, ⟨28, _⟩ => ⟨S128, .f32⟩
  | .hbm, ⟨29, _⟩ => ⟨S_, .f32⟩
  | .hbm, ⟨30, _⟩ => ⟨S128, .f32⟩
  | .hbm, ⟨31, _⟩ => ⟨S128, .f32⟩
  | .hbm, ⟨32, _⟩ => ⟨S1x128, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S100000x1, .f32⟩
  | .hbm, ⟨38, _⟩ => ⟨S_, .i32⟩
  | .hbm, ⟨39, _⟩ => ⟨S3200000, .i32⟩
  | .hbm, ⟨40, _⟩ => ⟨S3200000, .i1⟩
  | .hbm, ⟨41, _⟩ => ⟨S_, .i32⟩
  | .hbm, ⟨42, _⟩ => ⟨S3200000, .i32⟩
  | .hbm, ⟨43, _⟩ => ⟨S3200000, .i32⟩
  | .hbm, ⟨44, _⟩ => ⟨S3200000, .i32⟩
  | .hbm, ⟨45, _⟩ => ⟨S_, .i32⟩
  | .hbm, ⟨46, _⟩ => ⟨S3200000, .i32⟩
  | .hbm, ⟨47, _⟩ => ⟨S3200000, .i32⟩
  | .hbm, ⟨48, _⟩ => ⟨S3200000x1, .i32⟩
  | .hbm, ⟨49, _⟩ => ⟨S3200000x1, .i32⟩
  | .hbm, ⟨50, _⟩ => ⟨S3200000x2, .i32⟩
  | .hbm, ⟨51, _⟩ => ⟨S3200000, .f32⟩
  | .hbm, ⟨52, _⟩ => ⟨S_, .f32⟩
  | .hbm, ⟨53, _⟩ => ⟨S100000, .f32⟩
  | .hbm, ⟨54, _⟩ => ⟨S3200000x1, .i32⟩
  | .hbm, ⟨55, _⟩ => ⟨S100000, .f32⟩
  | .hbm, ⟨56, _⟩ => ⟨S100000, .f32⟩
  | .hbm, ⟨57, _⟩ => ⟨S100000, .f32⟩
  | .hbm, ⟨58, _⟩ => ⟨S100000, .f32⟩
  | .hbm, ⟨59, _⟩ => ⟨S100000, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S1x128, .f32⟩
  | .local _ .vmem, ⟨5, _⟩ => ⟨S5000x1, .f32⟩
  | .local _ .vmem, ⟨6, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_4 : Ref sig .tc := ⟨.hbm, 27, rfl⟩
abbrev main_v13 : Ref sig .tc := ⟨.hbm, 28, rfl⟩
abbrev main_cst_5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_6 : Ref sig .tc := ⟨.hbm, 33, rfl⟩
abbrev main_v17 : Ref sig .tc := ⟨.hbm, 34, rfl⟩
abbrev main_cst_7 : Ref sig .tc := ⟨.hbm, 35, rfl⟩
abbrev main_v18 : Ref sig .tc := ⟨.hbm, 36, rfl⟩
abbrev main_v19 : Ref sig .tc := ⟨.hbm, 37, rfl⟩
abbrev main_c : Ref sig .tc := ⟨.hbm, 38, rfl⟩
abbrev main_v20 : Ref sig .tc := ⟨.hbm, 39, rfl⟩
abbrev main_v21 : Ref sig .tc := ⟨.hbm, 40, rfl⟩
abbrev main_c_8 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_9 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_10 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  reducesTo_S128x64_S128_d1 : S128x64.ReducesTo [1] S128
  h_S_ : 0 < S_.numel
  bcast_S_S128 : S_.BroadcastsInDim S128 (![] : Fin 0 → Fin S128.rank)
  shapeCasts_S128_S1x128 : S128.ShapeCasts S1x128
  reducesTo_S64_S_d0 : S64.ReducesTo [0] S_
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  concatenates_S3200000x1_S3200000x1_S3200000x2_d1 : Shape.Concatenates [S3200000x1, S3200000x1] S3200000x2 1
  shapeCasts_S100000x1_S100000 : S100000x1.ShapeCasts S100000
  scatter_S100000_S3200000x1_S3200000_n_0_0_1_wf : ScatterDims.WF S100000 S3200000x1 S3200000 [] [0] [0] 1
  gather_S100000x1_S3200000x2_S3200000_n_01_n_n_01_1_11_wf : GatherDims.WF S100000x1 S3200000x2 S3200000 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S100000x1.size a
  hwx0_3 : ∀ i : grid0.Coords, EltTy.bits .f32 = 32 ∨ (Rect.block (s := S100000x1) S5000x1.size (cc0_transform_3 i) (hinb0_3 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x1_S3200000x2_S3200000_n_01_n_n_01_1_11 : GatherDims S100000x1 S3200000x2 S3200000 where
  offsetDims := []
  collapsedSliceDims := [0, 1]
  operandBatchingDims := []
  startIndicesBatchingDims := []
  startIndexMap := [0, 1]
  indexVectorDim := 1
  sliceSizes := ![1, 1]
  wf := gather_S100000x1_S3200000x2_S3200000_n_01_n_n_01_1_11_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S5000x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x64 : Shape := ⟨2, ![100000, 64]⟩
abbrev S3200000x64 : Shape := ⟨2, ![3200000, 64]⟩
abbrev S1x64 : Shape := ⟨2, ![1, 64]⟩

abbrev nBuf : Space → Nat
  | .hbm => 53
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S3200000, .i32⟩
  | .hbm, ⟨4, _⟩ => ⟨S3200000, .i32⟩
  | .hbm, ⟨5, _⟩ => ⟨S_, .f32⟩
  | .hbm, ⟨6, _⟩ => ⟨S3200000, .f32⟩
  | .hbm, ⟨7, _⟩ => ⟨S_, .f32⟩
  | .hbm, ⟨8, _⟩ => ⟨S100000, .f32⟩
  | .hbm, ⟨9, _⟩ => ⟨S3200000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S3200000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x128, .f32⟩
  | .hbm, ⟨27, _⟩ => ⟨S100000x128, .f32⟩
  | .hbm, ⟨28, _⟩ => ⟨S100000x64, .f32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S3200000x64, .f32⟩
  | .hbm, ⟨38, _⟩ => ⟨S_, .f32⟩
  | .hbm, ⟨39, _⟩ => ⟨S100000x64, .f32⟩
  | .hbm, ⟨40, _⟩ => ⟨S3200000x1, .i32⟩
  | .hbm, ⟨41, _⟩ => ⟨S100000x64, .f32⟩
  | .hbm, ⟨42, _⟩ => ⟨S100000x1, .f32⟩
  | .hbm, ⟨43, _⟩ => ⟨S100000x64, .f32⟩
  | .hbm, ⟨44, _⟩ => ⟨S100000x64, .f32⟩
  | .hbm, ⟨45, _⟩ => ⟨S1x64, .f32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S100000, .f32⟩
  | .hbm, ⟨50, _⟩ => ⟨S_, .f32⟩
  | .hbm, ⟨51, _⟩ => ⟨S100000, .f32⟩
  | .hbm, ⟨52, _⟩ => ⟨S100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_call1_v0 : Ref sig .tc := ⟨.hbm, 21, rfl⟩
abbrev main_call1_v1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  scatter_S100000_S3200000x1_S3200000_n_0_0_1_wf : ScatterDims.WF S100000 S3200000x1 S3200000 [] [0] [0] 1
  dot_S100000x128_S128x64_S100000x64_1_0_0_1_n_n_wf : DotDims.WF S100000x128 S128x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

class Facts : Prop extends Facts₀ where

variable [Facts]
-- ==== Proof.LibEdgeScatter.lean ====
/-
  An accumulating scatter along the leading axis, read at an index, at the exact (extended-real) instance.

  `segment_sum(v, ids, N)` lowers to a `stablehlo.scatter` with an `add` body into a zero array: the scatter
  indices `ids` as an `[E, 1]` array (index vector on axis 1), one start index per update, the leading operand axis
  inserted. The update of edge `e` lands on row `ids[e]` read as a SIGNED integer, not clamped, and is dropped when
  that integer is not a row of the operand. So entry `n` of the result is the operand's entry plus the sum of the
  updates of the edges `e` with `ids[e] = n`.

  Two forms: a vector of scalars per edge (`[E]` into `[N]`) and a row per edge (`[E, D]` into `[N, D]`, the
  window axis 1 carried along unchanged).
-/
import Idealize.ShloMosaic.PureOps.Ideal
import Idealize.ShloMosaic.PureOps.Ideal.Laws
import Idealize.ShloMosaic.PureOps.Contract
import Idealize.ShloMosaic.Lib.ValueIdx

noncomputable section

namespace Idealize.ShloMosaic.EdgeScatter

open Idealize.ShloMosaic Idealize.ShloMosaic.ValueIdx

/-- The dimension numbers of a scatter of one scalar per edge into a vector: operand `[N]`, scatter indices
    `[E, 1]`, updates `[E]`; no window axis, the operand's axis inserted, index vector on axis 1. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The dimension numbers of a scatter of one row per edge into a matrix: operand `[N, D]`, scatter indices
    `[E, 1]`, updates `[E, D]`; window axis 1 of the updates, the operand's axis 0 inserted, index vector on axis 1. -/
abbrev rowDims (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- The edges whose index word, read signed, is row `n`. -/
def landing {E w : Nat} (idx : IVec ⟨2, ![E, 1]⟩ w) (n : Nat) : Finset (Fin E) :=
  Finset.univ.filter fun e => (idx (ix2 e 0)).toInt = (n : Int)

/-- An update lands on the operand index `i` exactly when, on every axis, its window start plus its window coordinate
    is `i`'s coordinate. -/
private theorem resultIdx?_eq_some_iff {s si u : Shape} (d : ScatterDims s si u) {w : Nat} (j : u.Idx)
    (idx : IVec si w) (i : s.Idx) :
    d.resultIdx? j idx = some i ↔ ∀ a, d.start j idx a + (d.window j a : Int) = ((i a).val : Int) := by
  unfold ScatterDims.resultIdx?
  constructor
  · intro h a
    split at h
    · rename_i hb
      have hv := congrArg Fin.val (congrFun (Option.some.inj h) a)
      simp only at hv
      have := (hb a).1
      omega
    · exact absurd h (by simp)
  · intro h
    have hb : ∀ a, 0 ≤ d.start j idx a + (d.window j a : Int) ∧
        d.start j idx a + (d.window j a : Int) < (s.size a : Int) := by
      intro a
      rw [h a]
      exact ⟨Int.natCast_nonneg _, by exact_mod_cast (i a).isLt⟩
    rw [dif_pos hb]
    congr 1
    funext a
    refine Fin.ext ?_
    show (d.start j idx a + (d.window j a : Int)).toNat = (i a).val
    rw [h a]
    exact Int.toNat_natCast _

/-! ### The vector form's start and window -/

/-- The vector form's window start on the operand's one axis: the edge's index word, read signed. -/
private theorem vec_start {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) (a : Fin 1) :
    (vecDims N E wf).start j idx a = (idx (ix2 (j 0) 0)).toInt := by
  obtain rfl : a = 0 := Subsingleton.elim _ _
  unfold ScatterDims.start
  rw [dif_pos (show (0 : Fin 1) ∈ (vecDims N E wf).scatterDimsToOperandDims from List.mem_singleton.mpr rfl)]
  have hsi : (vecDims N E wf).siIdx j ⟨List.idxOf (0 : Fin 1) (vecDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The vector form has no window axis: the window coordinate on the operand's (inserted) axis is zero. -/
private theorem vec_window {N E : Nat} (wf : ScatterDims.WF ⟨1, ![N]⟩ ⟨2, ![E, 1]⟩ ⟨1, ![E]⟩ [] [0] [0] 1)
    (j : (⟨1, ![E]⟩ : Shape).Idx) (a : Fin 1) :
    (vecDims N E wf).window j a = 0 := by
  obtain rfl : a = 0 := Subsingleton.elim _ _
  unfold ScatterDims.window
  have ha : (0 : Fin 1) ∉ (vecDims N E wf).sKept := by
    simp [ScatterDims.sKept, Shape.kept]
  rw [dif_neg ha]

/-- In the vector form the update of edge `j 0` lands on `n` exactly when its index word, read signed, is `n`. -/
private theorem vec_lands_iff {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) (n : Fin N) :
    (vecDims N E wf).resultIdx? j idx = some (ix1 n) ↔ (idx (ix2 (j 0) 0)).toInt = (n.val : Int) := by
  rw [resultIdx?_eq_some_iff]
  constructor
  · intro h
    have h0 : (idx (ix2 (j 0) 0)).toInt + ((0 : Nat) : Int) = (n.val : Int) := by
      have := h 0
      rw [vec_start, vec_window] at this
      exact this
    omega
  · intro h a
    obtain rfl : a = 0 := Subsingleton.elim _ _
    rw [vec_start, vec_window]
    show (idx (ix2 (j 0) 0)).toInt + ((0 : Nat) : Int) = (n.val : Int)
    omega

/-! ### The row form's start and window -/

/-- The row form's window start on the operand's row axis: the edge's index word, read signed. -/
private theorem row_start0 {N D E w : Nat} (wf : ScatterDims.WF ⟨2, ![N, D]⟩ ⟨2, ![E, 1]⟩ ⟨2, ![E, D]⟩ [1] [0] [0] 1)
    (j : (⟨2, ![E, D]⟩ : Shape).Idx) (idx : IVec ⟨2, ![E, 1]⟩ w) :
    (rowDims N D E wf).start j idx 0 = (idx (ix2 (j 0) 0)).toInt := by
  unfold ScatterDims.start
  rw [dif_pos (show (0 : Fin 2) ∈ (rowDims N D E wf).scatterDimsToOperandDims from List.mem_singleton.mpr rfl)]
  have hsi : (rowDims N D E wf).siIdx j ⟨List.idxOf (0 : Fin 2) (rowDims N D E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The row form's window start on the operand's column axis, which the index vector does not name: zero. -/
private theorem row_start1 {N D E w : Nat} (wf : ScatterDims.WF ⟨2, ![N, D]⟩ ⟨2, ![E, 1]⟩ ⟨2, ![E, D]⟩ [1] [0] [0] 1)
    (j : (⟨2, ![E, D]⟩ : Shape).Idx) (idx : IVec ⟨2, ![E, 1]⟩ w) :
    (rowDims N D E wf).start j idx 1 = 0 := by
  unfold ScatterDims.start
  have h1 : (1 : Fin 2) ∉ (rowDims N D E wf).scatterDimsToOperandDims := by
    show (1 : Fin 2) ∉ [(0 : Fin 2)]
    decide
  rw [dif_neg h1]

/-- The row form's window coordinate on the operand's (inserted) row axis: zero. -/
private theorem row_window0 {N D E : Nat} (wf : ScatterDims.WF ⟨2, ![N, D]⟩ ⟨2, ![E, 1]⟩ ⟨2, ![E, D]⟩ [1] [0] [0] 1)
    (j : (⟨2, ![E, D]⟩ : Shape).Idx) :
    (rowDims N D E wf).window j 0 = 0 := by
  unfold ScatterDims.window
  have h0 : (0 : Fin 2) ∉ (rowDims N D E wf).sKept := by
    simp [ScatterDims.sKept, Shape.kept]
  rw [dif_neg h0]

/-- The row form's window coordinate on the operand's column axis: the update's column. -/
private theorem row_window1 {N D E : Nat} (wf : ScatterDims.WF ⟨2, ![N, D]⟩ ⟨2, ![E, 1]⟩ ⟨2, ![E, D]⟩ [1] [0] [0] 1)
    (j : (⟨2, ![E, D]⟩ : Shape).Idx) :
    (rowDims N D E wf).window j 1 = (j 1).val := by
  unfold ScatterDims.window
  have h1 : (1 : Fin 2) ∈ (rowDims N D E wf).sKept := by
    simp [ScatterDims.sKept, Shape.kept]
  rw [dif_pos h1]
  rfl

/-- In the row form the update at `(j 0, j 1)` lands on `(n, c)` exactly when the edge's index word, read signed, is `n`
    and the column is `c`. -/
private theorem row_lands_iff {N D E w : Nat} (wf : ScatterDims.WF ⟨2, ![N, D]⟩ ⟨2, ![E, 1]⟩ ⟨2, ![E, D]⟩ [1] [0] [0] 1)
    (j : (⟨2, ![E, D]⟩ : Shape).Idx) (idx : IVec ⟨2, ![E, 1]⟩ w) (n : Fin N) (c : Fin D) :
    (rowDims N D E wf).resultIdx? j idx = some (ix2 n c) ↔
      (idx (ix2 (j 0) 0)).toInt = (n.val : Int) ∧ (j 1).val = c.val := by
  rw [resultIdx?_eq_some_iff]
  constructor
  · intro h
    have h0 : (idx (ix2 (j 0) 0)).toInt + ((0 : Nat) : Int) = (n.val : Int) := by
      have := h 0
      rw [row_start0, row_window0] at this
      exact this
    have h1 : (0 : Int) + (((j 1).val : Nat) : Int) = (c.val : Int) := by
      have := h 1
      rw [row_start1, row_window1] at this
      exact this
    constructor <;> omega
  · rintro ⟨h0, h1⟩ a
    match a with
    | ⟨0, _⟩ =>
      show (rowDims N D E wf).start j idx 0 + (((rowDims N D E wf).window j 0 : Nat) : Int) = (n.val : Int)
      rw [row_start0, row_window0]; omega
    | ⟨1, _⟩ =>
      show (rowDims N D E wf).start j idx 1 + (((rowDims N D E wf).window j 1 : Nat) : Int) = (c.val : Int)
      rw [row_start1, row_window1]; omega

/-- THE VECTOR SCATTER-ADD AT `n`: the operand's entry plus the sum of the updates landing on `n`. -/
theorem scatterAdd_vec_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (vecDims N E wf) x idx upd (ix1 n)
      = x (ix1 n) + ∑ e ∈ landing idx n.val, upd (ix1 e) := by
  show Ideal.hostScatterAdd (vecDims N E wf) x idx upd (ix1 n) = _
  unfold Ideal.hostScatterAdd
  show x (ix1 n) + _ = x (ix1 n) + _
  congr 1
  refine Finset.sum_nbij' (fun j => j 0) (fun e => ix1 e) ?_ ?_ ?_ ?_ ?_
  · intro j hj
    rw [Finset.mem_filter] at hj
    exact Finset.mem_filter.mpr ⟨Finset.mem_univ _, (vec_lands_iff wf j idx n).mp hj.2⟩
  · intro e he
    unfold landing at he
    rw [Finset.mem_filter] at he ⊢
    exact ⟨Finset.mem_univ _, (vec_lands_iff wf (ix1 e) idx n).mpr he.2⟩
  · intro j _
    exact (eq_ix1 j).symm
  · intro e _
    rfl
  · intro j _
    exact congrArg upd (eq_ix1 j)

/-- THE ROW SCATTER-ADD AT `(n, c)`: the operand's entry plus the sum over the edges landing on row `n` of their
    updates' entry `c`. -/
theorem scatterAdd_row_apply {N D E w : Nat} {φ : FTy}
    (wf : ScatterDims.WF ⟨2, ![N, D]⟩ ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ) (n : Fin N) (c : Fin D) :
    Host.scatterAdd (F := Ideal) (rowDims N D E wf) x idx upd (ix2 n c)
      = x (ix2 n c) + ∑ e ∈ landing idx n.val, upd (ix2 e c) := by
  show Ideal.hostScatterAdd (rowDims N D E wf) x idx upd (ix2 n c) = _
  unfold Ideal.hostScatterAdd
  show x (ix2 n c) + _ = x (ix2 n c) + _
  congr 1
  have hcol : ∀ j : (⟨2, ![E, D]⟩ : Shape).Idx, (j 1).val = c.val → ix2 (j 0) c = j := by
    intro j h
    funext a
    match a with
    | ⟨0, _⟩ => rfl
    | ⟨1, _⟩ => exact Fin.ext h.symm
  refine Finset.sum_nbij' (fun j => j 0) (fun e => ix2 e c) ?_ ?_ ?_ ?_ ?_
  · intro j hj
    rw [Finset.mem_filter] at hj
    exact Finset.mem_filter.mpr ⟨Finset.mem_univ _, ((row_lands_iff wf j idx n c).mp hj.2).1⟩
  · intro e he
    unfold landing at he
    rw [Finset.mem_filter] at he ⊢
    exact ⟨Finset.mem_univ _, (row_lands_iff wf (ix2 e c) idx n c).mpr ⟨he.2, rfl⟩⟩
  · intro j hj
    rw [Finset.mem_filter] at hj
    exact hcol j ((row_lands_iff wf j idx n c).mp hj.2).2
  · intro e _
    rfl
  · intro j hj
    rw [Finset.mem_filter] at hj
    exact congrArg upd (hcol j ((row_lands_iff wf j idx n c).mp hj.2).2).symm

end Idealize.ShloMosaic.EdgeScatter

end
-- ==== Proof.LibEdgeGather.lean ====
/-
  Two gathers along the leading axis, read at an index.

  `x[ids]` of a matrix `x : [N, D]` at an integer vector `ids : [E]` lowers to a `stablehlo.gather` over the
  start indices as `[E, 1]` (offset axis 1, the operand's axis 0 collapsed, slice sizes `[1, D]`): result entry
  `(e, c)` is the operand's at row `ids[e]` — read as a signed integer and clamped into `[0, N − 1]`, as the
  gather clamps every start index — and column `c`.

  `x[ids, 0]` of a one-column matrix `x : [N, 1]` lowers to a gather over start indices `[E, 2]` (the pair
  (row, column) per edge; both operand axes collapsed, slice sizes `[1, 1]`): result entry `e` is the operand's at
  the clamped row and — the column axis having extent one — column `0`, whatever the second index word holds.
-/
import Idealize.ShloMosaic.PureOps.ShapeOps
import Idealize.ShloMosaic.Lib.ValueIdx

noncomputable section

namespace Idealize.ShloMosaic.EdgeGather

open Idealize.ShloMosaic Idealize.ShloMosaic.ValueIdx

variable {α : Type}

/-- The row a start-index word names: read signed, clamped into `[0, N − 1]`. -/
def clampRow (N : Nat) (hN : 0 < N) {w : Nat} (b : BitVec w) : Fin N := ⟨min b.toInt.toNat (N - 1), by omega⟩

/-- Dimension numbers of the row gather: operand `[N, D]`, start indices `[E, 1]`, result `[E, D]`. -/
abbrev rowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Dimension numbers of the gather of a one-column matrix at (row, column) pairs: operand `[N, 1]`, start
    indices `[E, 2]`, result `[E]`. -/
abbrev pairDims (N E : Nat)
    (wf : GatherDims.WF ⟨2, ![N, 1]⟩ ⟨2, ![E, 2]⟩ ⟨1, ![E]⟩ [] [0, 1] [] [0, 1] [] 1 ![1, 1]) :
    GatherDims ⟨2, ![N, 1]⟩ ⟨2, ![E, 2]⟩ ⟨1, ![E]⟩ where
  offsetDims := []
  collapsedSliceDims := [0, 1]
  operandBatchingDims := []
  startIndicesBatchingDims := []
  startIndexMap := [0, 1]
  indexVectorDim := 1
  sliceSizes := ![1, 1]
  wf := wf

/-- THE ROW GATHER AT `(e, c)`: the operand at the clamped row `ids[e]` and column `c`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowDims N D E wf) x idx (ix2 e c) = x (ix2 (clampRow N hN (idx (ix2 e 0))) c) := by
  unfold Host.gather
  congr 1
  funext a
  match a with
  | ⟨0, _⟩ =>
    -- the row axis: collapsed, named by the start index map; the clamped start alone
    refine Fin.ext ?_
    show (rowDims N D E wf).start (ix2 e c) idx 0 + (rowDims N D E wf).batchCoord (ix2 e c) 0
      + (rowDims N D E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D E wf).startIndexMap from List.mem_singleton.mpr rfl)]
    have hsi : (rowDims N D E wf).siIdx (ix2 e c) ⟨List.idxOf (0 : Fin 2) (rowDims N D E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    -- the column axis: the one offset axis, not named by the start index map; the offset coordinate alone
    refine Fin.ext ?_
    show (rowDims N D E wf).start (ix2 e c) idx 1 + (rowDims N D E wf).batchCoord (ix2 e c) 1
      + (rowDims N D E wf).offCoord (ix2 e c) 1 = _
    rw [GatherDims.batchCoord_eq_zero _ _ _ List.not_mem_nil]
    have hst : (rowDims N D E wf).start (ix2 e c) idx 1 = 0 := by
      unfold GatherDims.start
      rw [dif_neg (show (1 : Fin 2) ∉ (rowDims N D E wf).startIndexMap from
        (by decide : (1 : Fin 2) ∉ ([0] : List (Fin 2))))]
    have hk : (1 : Fin 2) ∈ (rowDims N D E wf).sKept :=
      (GatherDims.mem_sKept _ _).mpr ⟨(by decide : (1 : Fin 2) ∉ ([0] : List (Fin 2))), List.not_mem_nil⟩
    have hoff : (rowDims N D E wf).offCoord (ix2 e c) 1 = c.val := by
      unfold GatherDims.offCoord
      rw [dif_pos hk]
      rfl
    rw [hst, hoff]
    simp

/-- THE PAIR GATHER AT `e`: the operand at the clamped row `idx[e, 0]` and column `0`. -/
theorem gather_pair_apply {N E w : Nat} (hN : 0 < N)
    (wf : GatherDims.WF ⟨2, ![N, 1]⟩ ⟨2, ![E, 2]⟩ ⟨1, ![E]⟩ [] [0, 1] [] [0, 1] [] 1 ![1, 1])
    (x : (⟨2, ![N, 1]⟩ : Shape).Idx → α) (idx : IVec ⟨2, ![E, 2]⟩ w) (e : Fin E) :
    Host.gather (pairDims N E wf) x idx (ix1 e) = x (ix2 (clampRow N hN (idx (ix2 e 0))) 0) := by
  unfold Host.gather
  congr 1
  funext a
  match a with
  | ⟨0, _⟩ =>
    -- the row axis: collapsed, first in the start index map; the clamped start alone
    refine Fin.ext ?_
    show (pairDims N E wf).start (ix1 e) idx 0 + (pairDims N E wf).batchCoord (ix1 e) 0
      + (pairDims N E wf).offCoord (ix1 e) 0 = _
    rw [GatherDims.batchCoord_eq_zero _ _ _ List.not_mem_nil,
      GatherDims.offCoord_eq_zero _ _ _ (fun h => ((GatherDims.mem_sKept _ _).mp h).1
        (by decide : (0 : Fin 2) ∈ ([0, 1] : List (Fin 2))))]
    simp only [Nat.add_zero]
    unfold GatherDims.start
    rw [dif_pos (show (0 : Fin 2) ∈ (pairDims N E wf).startIndexMap from
      (by decide : (0 : Fin 2) ∈ ([0, 1] : List (Fin 2))))]
    have hsi : (pairDims N E wf).siIdx (ix1 e) ⟨List.idxOf (0 : Fin 2) (pairDims N E wf).startIndexMap,
        List.idxOf_lt_length_iff.2 (by decide : (0 : Fin 2) ∈ ([0, 1] : List (Fin 2)))⟩ = ix2 e 0 := by
      funext b; refine Fin.ext ?_
      match b with
      | ⟨0, _⟩ => rfl
      | ⟨1, _⟩ => rfl
    rw [hsi]
    rfl
  | ⟨1, _⟩ =>
    -- the column axis: collapsed, of extent one and slice size one, so its start is clamped into [0, 1 − 1]
    refine Fin.ext ?_
    show (pairDims N E wf).start (ix1 e) idx 1 + (pairDims N E wf).batchCoord (ix1 e) 1
      + (pairDims N E wf).offCoord (ix1 e) 1 = _
    rw [GatherDims.batchCoord_eq_zero _ _ _ List.not_mem_nil,
      GatherDims.offCoord_eq_zero _ _ _ (fun h => ((GatherDims.mem_sKept _ _).mp h).1
        (by decide : (1 : Fin 2) ∈ ([0, 1] : List (Fin 2))))]
    have hst : (pairDims N E wf).start (ix1 e) idx 1 = 0 :=
      Nat.le_zero.mp ((pairDims N E wf).start_le (ix1 e) idx 1)
    rw [hst]
    rfl

end Idealize.ShloMosaic.EdgeGather

end
-- ==== Proof.FiniteInputs.lean ====
/-
  What the precondition gives, and the constants of the two programs.

  The precondition says of each float argument array that every entry's absolute value is below +∞: every entry
  is a real number. The degree normalisations are real too: a degree is a finite sum of ones, its clip from below
  by one is a real number at least one, and the reciprocal square root of a positive real is a real.
-/
import proofs.«155696_j90400471646753_2_alg».proof.Pre_finite_inputs
import proofs.«155696_j90400471646753_2_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.FiniteInputs

open Idealize.ShloMosaic Cert.Pre_finite_inputs

/-- The word with sign 0, all-ones exponent and zero fraction is +∞. -/
private theorem ofBits_inf : Ideal.ofBits .f32 0x7F800000#32 = (⊤ : EReal) := by
  simp [Ideal.ofBits, Ideal.ieee]

/-- An extended real whose absolute value max x (-x) is below +∞ is a real number: at ⊥ the absolute value is
    -⊥ = ⊤, at ⊤ it is ⊤, and neither is below ⊤. -/
private theorem real_of_abs_lt_top (x : EReal) (h : max x (-x) < ⊤) : ∃ r : ℝ, x = (r : EReal) := by
  induction x using EReal.rec with
  | bot => simp at h
  | coe r => exact ⟨r, rfl⟩
  | top => simp at h

/-- The element fact of the precondition: the ordered comparison |x| < (the word of +∞) came out true, so x is a
    real number. -/
private theorem real_of_cmp (x : EReal)
    (h : Ideal.cmp .olt (max x (-x)) (Ideal.ofBits .f32 0x7F800000#32) = 1#1) : ∃ r : ℝ, x = (r : EReal) := by
  rw [ofBits_inf] at h
  refine real_of_abs_lt_top x ?_
  by_contra hn
  simp [Ideal.cmp, hn] at h

/-- The word of `0.0` is the real zero. -/
theorem ofBits_zero : Ideal.ofBits .f32 0x00000000#32 = ((0 : ℝ) : EReal) := by
  simp [Ideal.ofBits, Ideal.ieee]

/-- The word of `1.0` is the real one. -/
theorem ofBits_one : Ideal.ofBits .f32 0x3F800000#32 = ((1 : ℝ) : EReal) := by
  -- sign 0, exponent field 127, fraction 0: 2^23 · 2^(127 - 127 - 23)
  simp [Ideal.ofBits, Ideal.ieee]
  norm_cast
  norm_num

/-- The word of `64.0` is the real sixty-four. -/
theorem ofBits_64 : Ideal.ofBits .f32 0x42800000#32 = ((64 : ℝ) : EReal) := by
  -- sign 0, exponent field 133, fraction 0: 2^23 · 2^(133 - 127 - 23)
  simp [Ideal.ofBits, Ideal.ieee]
  norm_cast
  norm_num

/-- Under the precondition every entry of the three float arguments is a real number. -/
theorem real_of_pre (a0 : FVec Ideal S100000x128 .f32) (a1 : FVec Ideal S128x64 .f32) (a2 : FVec Ideal S64 .f32)
    (a3 a4 : IVec S3200000 32)
    (h : Cert.Pre_finite_inputs.fn (F := Ideal) a0 a1 a2 a3 a4 = fun _ => 1#1) :
    (∃ f : S100000x128.Idx → ℝ, a0 = fun i => ((f i : ℝ) : EReal))
    ∧ (∃ g : S128x64.Idx → ℝ, a1 = fun i => ((g i : ℝ) : EReal))
    ∧ (∃ b : S64.Idx → ℝ, a2 = fun i => ((b i : ℝ) : EReal)) := by
  -- the scalar result has one index
  haveI : Subsingleton S_.Idx := ⟨fun a b => funext fun d => d.elim0⟩
  have h0 := congrFun h ValueIdx.ix0
  dsimp only [Cert.Pre_finite_inputs.fn] at h0
  -- the conjunction of the three reductions
  obtain ⟨h01, h2⟩ := IntOp.andi_eq_one.1 h0
  obtain ⟨h0', h1⟩ := IntOp.andi_eq_one.1 h01
  -- each reduction by `and` that came out 1 met a 1 at every index; that 1 is the comparison |x| < +∞ there
  have e0 : ∀ i : S100000x128.Idx, ∃ r : ℝ, a0 i = (r : EReal) := fun i =>
    real_of_cmp (a0 i) (Host.reduce_andi_all _ _ _ _ _ h0' i)
  have e1 : ∀ i : S128x64.Idx, ∃ r : ℝ, a1 i = (r : EReal) := fun i =>
    real_of_cmp (a1 i) (Host.reduce_andi_all _ _ _ _ _ h1 i)
  have e2 : ∀ i : S64.Idx, ∃ r : ℝ, a2 i = (r : EReal) := fun i =>
    real_of_cmp (a2 i) (Host.reduce_andi_all _ _ _ _ _ h2 i)
  choose f hf using e0
  choose g hg using e1
  choose b hb using e2
  exact ⟨⟨f, funext hf⟩, ⟨g, funext hg⟩, ⟨b, funext hb⟩⟩

/-- The reciprocal square root of a count of ones clipped from below by one is a real number. -/
theorem rsqrt_clip_count_real {ι : Type} (s : Finset ι) :
    ∃ r : ℝ, Ideal.rsqrt (max (Ideal.ofBits .f32 0x3F800000#32)
        (Ideal.ofBits .f32 0x00000000#32 + ∑ _e ∈ s, Ideal.ofBits .f32 0x3F800000#32)) = ((r : ℝ) : EReal) := by
  rw [ofBits_zero, ofBits_one]
  -- a sum of card-many ones is the real number card
  have hsum : (∑ _e ∈ s, ((1 : ℝ) : EReal)) = (((s.card : ℝ) : ℝ) : EReal) := by
    rw [Finset.sum_const, ← EReal.coe_nsmul, nsmul_eq_mul, mul_one]
  rw [hsum, ← EReal.coe_add]
  -- the coercion of the reals is monotone, so it commutes with max
  have hmax : max ((1 : ℝ) : EReal) (((0 : ℝ) + (s.card : ℝ) : ℝ) : EReal)
      = ((max (1 : ℝ) (0 + (s.card : ℝ)) : ℝ) : EReal) :=
    (EReal.coe_strictMono.monotone.map_max).symm
  rw [hmax, Ideal.rsqrt_coe]
  -- the clipped count is at least one, so neither corner of the reciprocal square root is met
  have hpos : (0 : ℝ) < max (1 : ℝ) (0 + (s.card : ℝ)) := lt_of_lt_of_le one_pos (le_max_left _ _)
  rw [if_neg (not_lt.2 hpos.le), if_neg hpos.ne']
  exact ⟨_, rfl⟩

end Cert.FiniteInputs

end
-- ==== Proof.LibMeanAlgebra.lean ====
/-
  The mean over the feature axis commutes with a weighted sum of rows.

  For real data: rows `A e` (`e` in a finite set `L`), a matrix `W`, a bias `b`, a scale `i` and a nonzero
  divisor `d`,
      ( ∑_c ( (∑_{e ∈ L} ∑_k A e k · W k c) · i + b c ) ) / d
    =  i · ∑_{e ∈ L} ∑_k A e k · ( (∑_c W k c) / d )  +  (∑_c b c) / d :
  the mean over `c` is linear, so it passes through the sum over `e` and the contraction over `k` and lands on the
  columns of `W`. Stated on the extended reals for data that are real numbers (where the extended reals'
  addition and multiplication are the reals'), with the quotient `Ideal.div` and the explicit zero initial values
  of the sums as they stand in a lowered program.
-/
import Idealize.ShloMosaic.PureOps.Ideal
import Idealize.ShloMosaic.PureOps.Ideal.Laws

noncomputable section

namespace Idealize.ShloMosaic.MeanAlgebra

open Idealize.ShloMosaic

/-- The coercion of the reals into the extended reals commutes with finite sums. -/
theorem coe_sum {ι : Type} (s : Finset ι) (g : ι → ℝ) : ((∑ e ∈ s, g e : ℝ) : EReal) = ∑ e ∈ s, ((g e : ℝ) : EReal) := by
  classical
  -- induction on the index set: the empty sum is zero on both sides, and one more term is one more addition,
  -- which the coercion respects
  refine Finset.induction_on s ?_ ?_
  · rw [Finset.sum_empty, Finset.sum_empty, EReal.coe_zero]
  · intro a t ha ih
    rw [Finset.sum_insert ha, Finset.sum_insert ha, EReal.coe_add, ih]

/-- THE IDENTITY over the reals. -/
theorem mean_commutes_real {ι : Type} {K J : Nat} (L : Finset ι) (A : ι → Fin K → ℝ) (W : Fin K → Fin J → ℝ) (b : Fin J → ℝ)
    (i d : ℝ) (hd : d ≠ 0) :
    (∑ c : Fin J, ((∑ e ∈ L, ∑ k : Fin K, A e k * W k c) * i + b c)) / d
      = i * (∑ e ∈ L, ∑ k : Fin K, A e k * ((∑ c : Fin J, W k c) / d)) + (∑ c : Fin J, b c) / d := by
  -- the sum over the columns passes through the sums over the rows and over the contraction index
  have h1 : (∑ c : Fin J, ∑ e ∈ L, ∑ k : Fin K, A e k * W k c)
      = ∑ e ∈ L, ∑ k : Fin K, A e k * ∑ c : Fin J, W k c := by
    rw [Finset.sum_comm]
    refine Finset.sum_congr rfl (fun e _ => ?_)
    rw [Finset.sum_comm]
    refine Finset.sum_congr rfl (fun k _ => ?_)
    rw [Finset.mul_sum]
  -- the division by `d` comes out of the same two sums
  have h2 : (∑ e ∈ L, ∑ k : Fin K, A e k * ((∑ c : Fin J, W k c) / d))
      = (∑ e ∈ L, ∑ k : Fin K, A e k * ∑ c : Fin J, W k c) / d := by
    rw [Finset.sum_div]
    refine Finset.sum_congr rfl (fun e _ => ?_)
    rw [Finset.sum_div]
    refine Finset.sum_congr rfl (fun k _ => ?_)
    rw [mul_div_assoc]
  rw [Finset.sum_add_distrib, ← Finset.sum_mul, add_div, h1, h2]
  ring

/-- THE IDENTITY on the extended reals, for real data, in the form a lowered program has it. -/
theorem mean_commutes {ι : Type} {K J : Nat} (L : Finset ι) (A : ι → Fin K → ℝ) (W : Fin K → Fin J → ℝ) (b : Fin J → ℝ)
    (i d : ℝ) (hd : d ≠ 0) :
    Ideal.div ((0 : EReal) + ∑ c : Fin J,
        (((0 : EReal) + ∑ e ∈ L, ∑ k : Fin K, ((A e k : ℝ) : EReal) * ((W k c : ℝ) : EReal)) * ((i : ℝ) : EReal)
          + ((b c : ℝ) : EReal))) ((d : ℝ) : EReal)
      = ((i : ℝ) : EReal) * ((0 : EReal) + ∑ e ∈ L, ∑ k : Fin K,
            ((A e k : ℝ) : EReal) * Ideal.div ((0 : EReal) + ∑ c : Fin J, ((W k c : ℝ) : EReal)) ((d : ℝ) : EReal))
        + Ideal.div ((0 : EReal) + ∑ c : Fin J, ((b c : ℝ) : EReal)) ((d : ℝ) : EReal) := by
  -- a quotient by a nonzero real is a product with its real reciprocal; then every product, sum and finite sum of
  -- coerced reals is the coercion of the real product, sum and finite sum, so both sides are coerced reals
  simp only [Ideal.div_coe hd, zero_add, ← EReal.coe_mul, ← coe_sum, ← EReal.coe_add]
  rw [EReal.coe_eq_coe_iff]
  simp only [mul_one_div]
  exact mean_commutes_real L A W b i d hd

end Idealize.ShloMosaic.MeanAlgebra

end
-- ==== Proof.Forms.lean ====
/-
  The two programs' results as formulas, and why they agree.

  With `f` the features, `W` the weights, `b` the bias, `on` / `inn` the out- and in-degree normalisations, `L`
  the edges whose destination is node `n`, and `r e` the (clamped) source row of edge `e`:
  • the reference aggregates 64-wide rows and then takes the mean over the 64 features:
      ( ∑_c ( (∑_{e ∈ L} ∑_k (f[r e, k] · on[r e]) · W[k, c]) · inn[n] + b[c] ) ) / 64 ;
  • the kernel first collapses the weights to their row means and aggregates one scalar per edge:
      inn[n] · ∑_{e ∈ L} ∑_k (f[r e, k] · on[r e]) · ( (∑_c W[k, c]) / 64 )  +  (∑_c b[c]) / 64 .
  For real data the two are equal because the mean is linear. The sums carry their explicit zero initial values,
  as in the lowered programs.
-/
import proofs.«155696_j90400471646753_2_alg».proof.Proof.FiniteInputs
import proofs.«155696_j90400471646753_2_alg».proof.Proof.LibMeanAlgebra
import Idealize.ShloMosaic.Lib.ValueIdx

noncomputable section

namespace Cert.GraphConv

open Idealize.ShloMosaic Idealize.ShloMosaic.ValueIdx

/-- The word of `0.0`, the initial value of every sum. -/
abbrev z : EReal := Ideal.ofBits .f32 0x00000000#32
/-- The word of `64.0`, the number of output features. -/
abbrev c64 : EReal := Ideal.ofBits .f32 0x42800000#32

/-- The reference's result at node `n`. -/
def refForm (f : (⟨2, ![100000, 128]⟩ : Shape).Idx → EReal) (W : (⟨2, ![128, 64]⟩ : Shape).Idx → EReal)
    (b : (⟨1, ![64]⟩ : Shape).Idx → EReal) (on inn : (⟨1, ![100000]⟩ : Shape).Idx → EReal)
    (L : Finset (Fin 3200000)) (r : Fin 3200000 → Fin 100000) (n : Fin 100000) : EReal :=
  Ideal.div (z + ∑ c : Fin 64,
      ((z + ∑ e ∈ L, ∑ k : Fin 128, (f (ix2 (r e) k) * on (ix1 (r e))) * W (ix2 k c)) * inn (ix1 n) + b (ix1 c))) c64

/-- The kernel's result at node `n`. -/
def kerForm (f : (⟨2, ![100000, 128]⟩ : Shape).Idx → EReal) (W : (⟨2, ![128, 64]⟩ : Shape).Idx → EReal)
    (b : (⟨1, ![64]⟩ : Shape).Idx → EReal) (on inn : (⟨1, ![100000]⟩ : Shape).Idx → EReal)
    (L : Finset (Fin 3200000)) (r : Fin 3200000 → Fin 100000) (n : Fin 100000) : EReal :=
  inn (ix1 n) * (z + ∑ e ∈ L, ∑ k : Fin 128,
      (f (ix2 (r e) k) * on (ix1 (r e))) * Ideal.div (z + ∑ c : Fin 64, W (ix2 k c)) c64)
    + Ideal.div (z + ∑ c : Fin 64, b (ix1 c)) c64

/-- For real data the two formulas agree: the mean over the features is linear. -/
theorem forms_eq (f : (⟨2, ![100000, 128]⟩ : Shape).Idx → EReal) (W : (⟨2, ![128, 64]⟩ : Shape).Idx → EReal)
    (b : (⟨1, ![64]⟩ : Shape).Idx → EReal) (on inn : (⟨1, ![100000]⟩ : Shape).Idx → EReal)
    (L : Finset (Fin 3200000)) (r : Fin 3200000 → Fin 100000) (n : Fin 100000)
    (hf : ∃ f' : (⟨2, ![100000, 128]⟩ : Shape).Idx → ℝ, f = fun i => ((f' i : ℝ) : EReal))
    (hW : ∃ W' : (⟨2, ![128, 64]⟩ : Shape).Idx → ℝ, W = fun i => ((W' i : ℝ) : EReal))
    (hb : ∃ b' : (⟨1, ![64]⟩ : Shape).Idx → ℝ, b = fun i => ((b' i : ℝ) : EReal))
    (hon : ∃ on' : (⟨1, ![100000]⟩ : Shape).Idx → ℝ, on = fun i => ((on' i : ℝ) : EReal))
    (hinn : ∃ inn' : (⟨1, ![100000]⟩ : Shape).Idx → ℝ, inn = fun i => ((inn' i : ℝ) : EReal)) :
    refForm f W b on inn L r n = kerForm f W b on inn L r n := by
  obtain ⟨f', rfl⟩ := hf
  obtain ⟨W', rfl⟩ := hW
  obtain ⟨b', rfl⟩ := hb
  obtain ⟨on', rfl⟩ := hon
  obtain ⟨inn', rfl⟩ := hinn
  unfold refForm kerForm z c64
  rw [Cert.FiniteInputs.ofBits_zero, Cert.FiniteInputs.ofBits_64, EReal.coe_zero]
  simp only [← EReal.coe_mul]
  exact Idealize.ShloMosaic.MeanAlgebra.mean_commutes L (fun e k => f' (ix2 (r e) k) * on' (ix1 (r e)))
    (fun k c => W' (ix2 k c)) (fun c => b' (ix1 c)) (inn' (ix1 n)) 64 (by norm_num)

end Cert.GraphConv

end
-- ==== Proof.RefValue.lean ====
/-
  The reference's result read at a node.

  The reference scales each feature row by its out-degree normalisation, multiplies by the weights, gathers the
  product's row at every edge's source, scatter-adds those rows at the edges' destinations, scales by the in-degree
  normalisation, adds the bias and takes the mean over the 64 features. Read at node `n`, one operation at a time:
  the scatter-add is the sum over the edges landing on `n`, the gather reads the (clamped) source row, the product
  is a sum over the 128 input features.
-/
import proofs.«155696_j90400471646753_2_alg».proof.Proof.Gen.ReferenceIdeal.Read
import proofs.«155696_j90400471646753_2_alg».proof.Proof.LibEdgeScatter
import proofs.«155696_j90400471646753_2_alg».proof.Proof.LibEdgeGather
import proofs.«155696_j90400471646753_2_alg».proof.Proof.Forms

set_option maxRecDepth 16384

noncomputable section

namespace Cert.ReferenceIdeal.RefValue

open Cert.ReferenceIdeal Cert.ReferenceIdeal.Gen Cert.ReferenceIdeal.Read Idealize.ShloMosaic Idealize.ShloMosaic.ValueIdx
open Cert.GraphConv

/-- The source row of edge `e`: its (sign-normalised) source word, clamped into the node range. -/
def srcRow (x3 : IVec S3200000 32) (e : Fin 3200000) : Fin 100000 :=
  EdgeGather.clampRow 100000 (by decide) (val_main_v19 (F := Ideal) x3 (ix1 e))

/-- The gathered product row at edge `e`, feature `c`: the scaled source row against column `c` of the weights. -/
theorem gathered_at (x0 : FVec Ideal S100000x128 .f32) (x1 : FVec Ideal S128x64 .f32) (x3 : IVec S3200000 32)
    (e : Fin 3200000) (c : Fin 64) :
    val_main_v21 (F := Ideal) x0 x1 x3 (ix2 e c)
      = ∑ k : Fin 128, (x0 (ix2 (srcRow x3 e) k) * val_main_v8 (F := Ideal) x3 (ix1 (srcRow x3 e))) * x1 (ix2 k c) := by
  unfold val_main_v21
  refine (EdgeGather.gather_rows_apply (N := 100000) (D := 64) (E := 3200000) (by decide) _ _ _ e c).trans ?_
  have hs : val_main_v20 (F := Ideal) x3 (ix2 e (0 : Fin 1)) = val_main_v19 (F := Ideal) x3 (ix1 e) := by
    rw [val_main_v20_apply]
    exact congrArg _ (funext fun a => by match a with | ⟨0, _⟩ => rfl)
  rw [hs, val_main_v14_apply]
  refine Finset.sum_congr rfl fun k _ => ?_
  rw [val_main_v13_apply, val_main_v12_apply, val_main_v11_apply]
  show (x0 _ * val_main_v8 (F := Ideal) x3 _) * x1 _ = _
  refine congrArg₂ (· * ·) (congrArg₂ (· * ·) (congrArg x0 ?_) (congrArg _ ?_)) (congrArg x1 ?_)
  · funext a; match a with
    | ⟨0, _⟩ => rfl
    | ⟨1, _⟩ => rfl
  · funext a; match a with
    | ⟨0, _⟩ => rfl
  · funext a; match a with
    | ⟨0, _⟩ => rfl
    | ⟨1, _⟩ => rfl

/-- THE REFERENCE'S RESULT AT NODE `n`. -/
theorem ref_at (x0 : FVec Ideal S100000x128 .f32) (x1 : FVec Ideal S128x64 .f32) (x2 : FVec Ideal S64 .f32)
    (x3 x4 : IVec S3200000 32) (n : Fin 100000) :
    val_main_v33 (F := Ideal) x0 x1 x2 x3 x4 (ix1 n)
      = refForm x0 x1 x2 (val_main_v8 (F := Ideal) x3) (val_main_v10 (F := Ideal) x4)
          (EdgeScatter.landing (val_main_v23 (F := Ideal) x4) n.val) (srcRow x3) n := by
  unfold refForm
  rw [val_main_v33_apply, val_main_v31_apply, val_main_v32_apply]
  show Ideal.div (z + ∑ k : Fin 64, val_main_v30 (F := Ideal) x0 x1 x2 x3 x4 (idx_main_v31 (ix1 n) k)) c64 = _
  refine congrArg (fun s => Ideal.div (z + s) c64) (Finset.sum_congr rfl fun c _ => ?_)
  have hi : idx_main_v31 (ix1 n) c = ix2 n c := by
    funext a; match a with
    | ⟨0, _⟩ => rfl
    | ⟨1, _⟩ => rfl
  rw [hi, val_main_v30_apply, val_main_v27_apply, val_main_v29_apply, val_main_v28_apply, val_main_v26_apply,
    val_main_v25_apply]
  show (val_main_v24 (F := Ideal) x0 x1 x3 x4 (ix2 n c)) * (val_main_v10 (F := Ideal) x4 _) + x2 _ = _
  refine congrArg₂ (· + ·) (congrArg₂ (· * ·) ?_ (congrArg _ ?_)) (congrArg x2 ?_)
  · -- the aggregated row: the zero operand plus the gathered rows of the edges landing on n
    unfold val_main_v24
    refine (EdgeScatter.scatterAdd_row_apply (N := 100000) (D := 64) (E := 3200000) _ _ _ _ n c).trans ?_
    refine congrArg₂ (· + ·) ?_ (Finset.sum_congr rfl fun e _ => gathered_at x0 x1 x3 e c)
    exact (val_main_v22_apply _).trans rfl
  · funext a; match a with
    | ⟨0, _⟩ => rfl
  · funext a; match a with
    | ⟨0, _⟩ => rfl

end Cert.ReferenceIdeal.RefValue

end
-- ==== Proof.KernelTail.lean ====
/-
  What the kernel's host program computes after its region, and the kernel's result at a node.

  After the region the host gathers, for every edge, the region's output at the edge's source node (a gather of the
  one-column output at (row, 0) pairs), scatter-adds those scalars at the edges' destinations, multiplies by the
  in-degree normalisation and adds the averaged bias. Read at node `n`: the in-degree normalisation of `n` times
  the sum, over the edges landing on `n`, of the weighted row sum of the edge's (clamped) source row, plus the
  averaged bias.
-/
import proofs.«155696_j90400471646753_2_alg».proof.Proof.Gen.KernelIdeal.Frame
import Idealize.ShloMosaic.Lib.Pipeline.Value
import Idealize.ShloMosaic.Lib.ValueIdx
import Idealize.ShloMosaic.Lib.StableHlo.Run
import Idealize.ShloMosaic.PureOps.Ideal.Laws

set_option maxRecDepth 16384
set_option Elab.async false

noncomputable section

namespace Cert.KernelIdeal.Tail

open Cert.KernelIdeal Cert.KernelIdeal.Gen Idealize.ShloMosaic Idealize.ShloMosaic.TcCoe Idealize.ShloMosaic.ValueIdx
open Idealize.SL.Sem Idealize.ShloMosaic.StableHlo

/-- The edges' source words with a negative word wrapped once by the node count (numpy's indexing rule). -/
def srcWords (x3 : IVec S3200000 32) : IVec S3200000 32 :=
  select (cmpi .slt x3 (broadcastInDim S3200000 ![] bcast_S_S3200000 (constantI S_ 32 0#32)))
    (addi x3 (broadcastInDim S3200000 ![] bcast_S_S3200000 (constantI S_ 32 100000#32))) x3

/-- The host operations after the region, as one function of what they read: the edges' sources and destinations,
    the region's output column `s`, the in-degree normalisation column and the averaged bias. -/
def tailTerm (x3 x4 : IVec S3200000 32) (s : FVec Ideal S100000x1 .f32) (innCol : FVec Ideal S100000x1 .f32)
    (bm : FVec Ideal S_ .f32) : FVec Ideal S100000 .f32 :=
  addf (mulf (shapeCast S100000 innCol shapeCasts_S100000x1_S100000)
      (Host.scatterAdd scatter_S100000_S3200000x1_S3200000_n_0_0_1
        (broadcastInDim S100000 ![] bcast_S_S100000 (constant (F := Ideal) S_ .f32 0x00000000#32))
        (broadcastInDim S3200000x1 ![0] bcast_S3200000_S3200000x1_0 x4)
        (Host.gather gather_S100000x1_S3200000x2_S3200000_n_01_n_n_01_1_11 s
          (concatenate S3200000x2 1
            [⟨S3200000x1, broadcastInDim S3200000x1 ![0] bcast_S3200000_S3200000x1_0 (srcWords x3)⟩,
             ⟨S3200000x1, broadcastInDim S3200000x1 ![0] bcast_S3200000_S3200000x1_0
                (id (broadcastInDim S3200000 ![] bcast_S_S3200000 (constantI S_ 32 0#32)))⟩]
            concatenates_S3200000x1_S3200000x1_S3200000x2_d1))))
    (broadcastInDim S100000 ![] bcast_S_S100000 bm)

set_option maxHeartbeats 4000000 in
/-- The host operations after the region, run from ANY buffer contents `U`, leave the result buffer at `tailTerm` of the
    five buffers they read. -/
theorem after_tail (U : Valuation τ sig (Elt Ideal)) :
    (StableHlo.after hostOps1 U (Proc.devRef .tc main_v37) : S100000.Idx → EReal)
      = tailTerm (U (Proc.devRef .tc main_arg3)) (U (Proc.devRef .tc main_arg4)) (U (Proc.devRef .tc main_v19))
          (U (Proc.devRef .tc main_v12)) (U (Proc.devRef .tc main_v18)) := by
  after_results
  unfold tailTerm srcWords
  rfl

end Cert.KernelIdeal.Tail

end
-- ==== Proof.LibKeepdims.lean ====
/-
  Column layouts and a lane sum read at an index.

  A sum over the last axis that keeps its dimension leaves a column: the [a] vector of row sums viewed as [a, 1],
  then spread along the rows of an [a, b] array. Read at `(p, c)` that array holds the sum of row `p`, whatever the
  column `c`. The lemmas here say so one layout step at a time, for every extent:
  • `shapeCast_a_a1_apply`: a vector [a] viewed as a column [a, 1] reads, at `(p, 0)`, the vector at `p`;
  • `broadcastTo_a1_ab_apply`: a column [a, 1] spread to [a, b] reads, at `(p, c)`, the column at `(p, 0)`;
  • `laneSum_apply`: over the extended reals, the sum of an [a, b] array along its last axis reads, at `p`, the
    finite sum over `k < b` of the array at `(p, k)`.
  Together with the library's row forms ([a] viewed as [1, a], a row [1, b] spread to [a, b]) these read every
  `sum(axis = -1, keepdims = True)` a kernel body broadcasts back over its block.
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx

variable {α : Type}

/-- A vector [a] viewed as a column [a, 1]: entry `(p, u)` of the column is entry `p` of the vector (row-major
    position `p · 1 + 0 = p`). -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] spread along the rows of an [a, b] array: entry `(p, c)` is the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over the extended reals the sum of an [a, b] array along its last axis, read at row `p`, is `∑ k < b` of the
    array at `(p, k)`: the reduced index with the summed coordinate put back is `(p, k)`. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun d => Fin.ext (by
      match d with
      | ⟨0, _⟩ => rfl
      | ⟨1, _⟩ => rfl)))

end Cert.Lib.Keepdims

end
-- ==== Proof.KernelBlocks.lean ====
/-
  What the kernel's one region leaves in its output array.

  The region runs over 20 blocks of 5000 rows. At a block the body multiplies each feature row by the row's
  out-degree normalisation (a column entry, spread along the row), then by the weight row (spread along the
  rows), and sums along the row: entry `p` of the block's output column is
  `∑ k, (x[p, k] · nrm[p]) · wv[k]`. Block `t` holds rows `5000·t … 5000·t + 4999` of the feature matrix, of the
  normalisation column and of the output column, and the whole weight row; the 20 blocks tile the output column.
  So after the region the output array is, row by row, that weighted row sum of the arrays the region found.
-/
import proofs.«155696_j90400471646753_2_alg».proof.Proof.Gen.KernelIdeal.Frame
import proofs.«155696_j90400471646753_2_alg».proof.Proof.LibKeepdims
import Idealize.ShloMosaic.Lib.Pipeline.Value
import Idealize.ShloMosaic.Lib.ValueIdx
import Idealize.ShloMosaic.PureOps.Ideal.Laws

set_option maxRecDepth 16384
set_option Elab.async false

noncomputable section

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat)

/-- The weighted row sum: row `p` of the features, scaled by the row's normalisation, against the weight row. -/
def rowDot (a : S100000x128.Idx → EReal) (nrm : S100000x1.Idx → EReal) (wv : S1x128.Idx → EReal) :
    S100000x1.Idx → EReal :=
  fun i => ∑ k : Fin 128, (a (ix2 (i 0) k) * nrm (ix2 (i 0) (0 : Fin 1))) * wv (ix2 (0 : Fin 1) k)

/-- The body's stored value at row `p` of a block: the weighted sum of the block's row `p`. -/
theorem pay_apply (x0 : Vec Ideal S5000x128 .f32) (x1 : Vec Ideal S5000x1 .f32) (x2 : Vec Ideal S1x128 .f32)
    (p : Fin 5000) (u : Fin 1) :
    (k0_pay1 x0 x1 x2 (ix2 p u) : EReal)
      = ∑ k : Fin 128, ((x0 (ix2 p k) : EReal) * (x1 (ix2 p (0 : Fin 1)) : EReal)) * (x2 (ix2 (0 : Fin 1) k) : EReal) := by
  unfold k0_pay1
  refine (Cert.Lib.Keepdims.shapeCast_a_a1_apply _ _ p u).trans ?_
  refine (Cert.Lib.Keepdims.laneSum_apply _ _ _ _ _ p).trans ?_
  refine Finset.sum_congr rfl fun k _ => ?_
  refine congrArg₂ (· * ·) (congrArg₂ (· * ·) rfl ?_) ?_
  · refine (Cert.Lib.Keepdims.broadcastTo_a1_ab_apply _ _ p k).trans ?_
    exact congrFun (shapeCast_self x1 _) _
  · refine (broadcastTo_apply _ _ (ix2 p k) (ix2 (0 : Fin 1) k) (fun ax => ?_)).trans ?_
    · match ax with
      | ⟨0, _⟩ => rfl
      | ⟨1, _⟩ => rfl
    · exact congrFun (shapeCast_self x2 _) _

/-- The same at any index of the block's output column. -/
theorem pay_at (x0 : Vec Ideal S5000x128 .f32) (x1 : Vec Ideal S5000x1 .f32) (x2 : Vec Ideal S1x128 .f32)
    (y : S5000x1.Idx) :
    (k0_pay1 x0 x1 x2 y : EReal)
      = ∑ k : Fin 128, ((x0 (ix2 (y 0) k) : EReal) * (x1 (ix2 (y 0) (0 : Fin 1)) : EReal)) * (x2 (ix2 (0 : Fin 1) k) : EReal) := by
  obtain ⟨p, u, rfl⟩ : ∃ (p : Fin 5000) (u : Fin 1), y = ix2 p u := ⟨y 0, y 1, eq_ix2 y⟩
  exact pay_apply x0 x1 x2 p u

variable (m : (ℓ : Loc nD τ sig) → Buf (Elt Ideal) ℓ)

theorem hz : (![0, 0] : Fin 2 → Nat) = fun _ => 0 := funext fun a => by fin_cases a <;> rfl

/-- The printed block index maps over the 20 points: the features, the normalisation column and the output column
    move together, block `t` at point `t`; the weight row stays. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Block `t` of the three input arrays, read where the body reads them, gives the weighted sum of row
    `5000·t + j` of the whole arrays: the blocks of the features, of the normalisation column and of the output column
    start at the same row, and the weight row's one block is the whole row. -/
theorem blk_rowDot (a : S100000x128.Idx → EReal) (nrm : S100000x1.Idx → EReal) (wv : S1x128.Idx → EReal)
    (t : Fin cfg0.N) (j : S5000x1.Idx) :
    (∑ k : Fin 128, (a (((cfg0.win 0).blk t).view.emb (ix2 (j 0) k)) * nrm (((cfg0.win 1).blk t).view.emb (ix2 (j 0) (0 : Fin 1))))
        * wv (((cfg0.win 2).blk t).view.emb (ix2 (0 : Fin 1) k)))
      = rowDot a nrm wv (((cfg0.win 3).blk t).view.emb j) := by
  unfold rowDot
  obtain ⟨e0, e1, e2, e3, e4, e5, e6, e7⟩ := idx_facts t
  refine Finset.sum_congr rfl fun k _ => ?_
  have hj : (j 0).val < 5000 := (j 0).isLt
  have hk : k.val < 128 := k.isLt
  have h0 : ((cfg0.win 0).blk t).view.emb (ix2 (j 0) k) = ix2 ((((cfg0.win 3).blk t).view.emb j) 0) k := by
    funext ax; apply Fin.ext
    match ax with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  have h1 : ((cfg0.win 1).blk t).view.emb (ix2 (j 0) (0 : Fin 1)) = ix2 ((((cfg0.win 3).blk t).view.emb j) 0) (0 : Fin 1) := by
    funext ax; apply Fin.ext
    match ax with
    | ⟨0, _⟩ => show win0_1.index t (0 : Fin 2) * 5000 + 1 * (j 0).val = win0_3.index t (0 : Fin 2) * 5000 + 1 * (j 0).val; omega
    | ⟨1, _⟩ => show win0_1.index t (1 : Fin 2) * 1 + 1 * 0 = 0; omega
  have h2 : ((cfg0.win 2).blk t).view.emb (ix2 (0 : Fin 1) k) = ix2 (0 : Fin 1) k := by
    funext ax; apply Fin.ext
    match ax with
    | ⟨0, _⟩ => show win0_2.index t (0 : Fin 2) * 1 + 1 * 0 = 0; omega
    | ⟨1, _⟩ => show win0_2.index t (1 : Fin 2) * 128 + 1 * k.val = k.val; omega
  rw [h0, h1, h2]
  rfl

/-- For ANY contents of the three input arrays: the body's result on their blocks at point `t`, written back, is
    block `t` of the weighted row sums of those arrays. -/
theorem flushed_gen (c : Dev nD) (A0 : Buf (Elt Ideal) ((c : Thread nD τ).loc main_arg0))
    (A1 : Buf (Elt Ideal) ((c : Thread nD τ).loc main_v9)) (A2 : Buf (Elt Ideal) ((c : Thread nD τ).loc main_v16))
    (t : Fin cfg0.N) :
    (cfg0.win 3).cut (grid0.coords t)
        (out0_3 (((cfg0.win 0).blk t).view.read (Elt Ideal) A0) (((cfg0.win 1).blk t).view.read (Elt Ideal) A1)
          (((cfg0.win 2).blk t).view.read (Elt Ideal) A2))
      = ((cfg0.win 3).blk t).view.read (Elt Ideal) (rowDot A0 A1 A2) := by
  unfold out0_3
  rw [View.canon_unit_zero hz]
  simp only [View.ld_unit_zero (S := S5000x128) hz, View.ld_unit_zero (S := S5000x1) hz, View.ld_unit_zero (S := S1x128) hz]
  funext j
  refine (pay_at _ _ _ j).trans ?_
  exact blk_rowDot A0 A1 A2 t j

/-- What point `t` writes back is block `t` of the weighted row sums of the arrays the region found. (The arrays the
    region found are named and then treated as unknowns: nothing here depends on what the host computed.) -/
theorem flushed_eq (c : Dev nD) (t : Fin cfg0.N) :
    (dats m 0 c).flushed 3 t
      = ((cfg0.win 3).blk t).view.read (Elt Ideal) (rowDot (V m c main_arg0) (V m c main_v9) (V m c main_v16)) := by
  show (cfg0.win 3).cut (grid0.coords t) ((dats m 0 c).after 3 t) = _
  rw [after0_3]
  unfold iblk
  show (cfg0.win 3).cut (grid0.coords t)
      (out0_3 (((cfg0.win 0).blk t).view.read (Elt Ideal) (V m c main_arg0))
        (((cfg0.win 1).blk t).view.read (Elt Ideal) (V m c main_v9))
        (((cfg0.win 2).blk t).view.read (Elt Ideal) (V m c main_v16))) = _
  generalize V m c main_arg0 = A0
  generalize V m c main_v9 = A1
  generalize V m c main_v16 = A2
  exact flushed_gen c A0 A1 A2 t

/-- An index of the output column is in point `t`'s block iff each coordinate is in the block's range. -/
theorem mem_blk (t : Fin cfg0.N) (i : S100000x1.Idx) :
    i ∈ ((cfg0.win 3).blk t).view.set ↔ ∀ a : Fin 2, win0_3.index t a * S5000x1.size a ≤ (i a).val ∧ (i a).val < win0_3.index t a * S5000x1.size a + S5000x1.size a := by
  show i ∈ ((View.whole main_v19).slice (win0_3.rect t)).set ↔ _
  rw [View.set_slice_whole, Rect.mem_set_unit]
  exact Iff.rfl

/-- Row `r` of the output column is written at point `r / 5000`. -/
theorem cover (i : S100000x1.Idx) :
    ∃ t : Fin cfg0.N, (cfg0.win 3).flush t = true ∧ i ∈ ((cfg0.win 3).blk t).view.set := by
  have hi0 : (i 0).val < 100000 := (i 0).isLt
  have hi1 : (i 1).val < 1 := (i 1).isLt
  have hN : (i 0).val / 5000 < cfg0.N := by show _ < grid0.N; rw [N_0]; omega
  refine ⟨⟨(i 0).val / 5000, hN⟩, flush0_3 _, ?_⟩
  obtain ⟨e0, e1, e2, e3, e4, e5, e6, e7⟩ := idx_facts ⟨(i 0).val / 5000, hN⟩
  rw [mem_blk]
  intro a
  match a with
  | ⟨0, _⟩ => show win0_3.index _ (0 : Fin 2) * 5000 ≤ (i 0).val ∧ (i 0).val < win0_3.index _ (0 : Fin 2) * 5000 + 5000; rw [e6]; show (i 0).val / 5000 * 5000 ≤ (i 0).val ∧ (i 0).val < (i 0).val / 5000 * 5000 + 5000; omega
  | ⟨1, _⟩ => show win0_3.index _ (1 : Fin 2) * 1 ≤ (i 1).val ∧ (i 1).val < win0_3.index _ (1 : Fin 2) * 1 + 1; rw [e7]; omega

/-- THE OUTPUT ARRAY after the region: the weighted row sums of the arrays the region found. -/
theorem final (c : Dev nD) :
    (dats m 0 c).arrAt 3 cfg0.N = rowDot (V m c main_arg0) (V m c main_v9) (V m c main_v16) :=
  (dats m 0 c).arrAt_eq_of_cover 3 _ (fun t _ => flushed_eq m c t) cover

end Cert.KernelIdeal.Blocks

end
-- ==== Proof.LibHostCalls.lean ====
/-
  Values passed through a called function's buffers, and the host's exponential and logarithm read at an entry.

  A host function that the program calls (an outlined relu, softmax, log-softmax …) runs its operations on buffers
  typed by the tensor values they hold: every value written into such a buffer is carried along the equation
  "the buffer's type is the value's type", and carried back when the next operation reads it. The two transports
  cancel: what is read back is what was written (`ofBuf_toBuf`). Rewriting with this lemma first leaves the called
  function's operations applied to one another directly, as the program's own top-level operations are.

  Over the extended reals the host's exponential and logarithm act entry by entry (`hostExp_apply`, `hostLog_apply`):
  stated as equations to rewrite with, so that a goal is never compared against the logarithm by unfolding it.
-/
import Idealize.ShloMosaic.Lib.StableHlo
import Idealize.ShloMosaic.PureOps.Ideal

noncomputable section

namespace Cert.Lib.HostCalls

open Idealize.ShloMosaic Idealize.ShloMosaic.StableHlo

/-- A value carried into a called function's buffer and read back out of it is the value. -/
theorem ofBuf_toBuf {sig : RefSig} {Val : EltTy → Type} {T : BufTy} (x : TRef sig T) (v : T.Contents Val) :
    x.ofBuf (x.toBuf v) = v := by
  obtain ⟨r, h, h1, h2⟩ := x
  subst h
  rfl

/-- The host's logarithm at an entry. -/
theorem hostLog_apply {s : Shape} {φ : FTy} (x : FVec Ideal s φ) (i : s.Idx) : Host.log x i = Ideal.log (x i) := rfl

/-- The host's exponential at an entry. -/
theorem hostExp_apply {s : Shape} {φ : FTy} (x : FVec Ideal s φ) (i : s.Idx) : Host.exp x i = Ideal.exp (x i) := rfl

end Cert.Lib.HostCalls

end
-- ==== Proof.KernelHost.lean ====
/-
  What the kernel's host program computes before its region.

  Before the region the host counts each node's out- and in-degree (a scatter-add of ones at the edges' sources,
  resp. destinations), clips the count from below by one and takes the reciprocal square root; it averages the
  weight matrix along its 64 columns into one weight per input feature, and the bias into one number. The region
  is handed the out-degree normalisation as a column, the averaged weights as a row; the in-degree normalisation
  and the averaged bias are used after the region. Everything here is stated for any float instance: reading the
  host operations back uses nothing about what the operations compute.
-/
import proofs.«155696_j90400471646753_2_alg».proof.Proof.Gen.KernelIdeal.Frame
import proofs.«155696_j90400471646753_2_alg».proof.Proof.LibHostCalls
import Idealize.ShloMosaic.Lib.Pipeline.Value
import Idealize.ShloMosaic.Lib.ValueIdx
import Idealize.ShloMosaic.Lib.StableHlo.Run
import Idealize.ShloMosaic.PureOps.Ideal.Laws

set_option maxRecDepth 16384
-- one theorem at a time: each walks the host program's operations before the region
set_option Elab.async false

noncomputable section

namespace Cert.KernelIdeal.HostValue

open Cert.KernelIdeal Cert.KernelIdeal.Gen Idealize.ShloMosaic Idealize.ShloMosaic.TcCoe Idealize.ShloMosaic.ValueIdx
open Idealize.SL.Sem Idealize.ShloMosaic.StableHlo

variable {F : FTy → Type} [FloatOps F]

/-- The degree normalisation of the node ids `x` (one per edge): the reciprocal square root of the count of
    edges per node, the count clipped from below by one. -/
def degNorm (x : IVec S3200000 32) : FVec F S100000 .f32 :=
  Host.rsqrt (maximumf (broadcastInDim S100000 ![] bcast_S_S100000 (id (constant (F := F) S_ .f32 0x3F800000#32)))
    (Host.scatterAdd scatter_S100000_S3200000x1_S3200000_n_0_0_1
      (broadcastInDim S100000 ![] bcast_S_S100000 (constant (F := F) S_ .f32 0x00000000#32))
      (broadcastInDim S3200000x1 ![0] bcast_S3200000_S3200000x1_0 x)
      (broadcastInDim S3200000 ![] bcast_S_S3200000 (constant (F := F) S_ .f32 0x3F800000#32))))

/-- The weight per input feature: the mean of the feature's 64 weights. -/
def meanW (w : FVec F S128x64 .f32) : FVec F S128 .f32 :=
  Host.divf (Host.reduceAdd w (constant (F := F) S_ .f32 0x00000000#32) reducesTo_S128x64_S128_d1 h_S_)
    (broadcastInDim S128 ![] bcast_S_S128 (constant (F := F) S_ .f32 0x42800000#32))

/-- The mean of the bias. -/
def meanB (b : FVec F S64 .f32) : FVec F S_ .f32 :=
  Host.divf (Host.reduceAdd b (constant (F := F) S_ .f32 0x00000000#32) reducesTo_S64_S_d0 h_S_)
    (constant (F := F) S_ .f32 0x42800000#32)

variable (m : (ℓ : Loc nD τ sig) → Buf (Elt F) ℓ)

/-- The region's second operand: the out-degree normalisation as a column. -/
theorem V_v9 (c : Dev nD) :
    (V m c main_v9 : S100000x1.Idx → F .f32)
      = shapeCast S100000x1 (degNorm (m ((c : Thread nD τ).loc main_arg3))) shapeCasts_S100000_S100000x1 := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  simp only [Cert.Lib.HostCalls.ofBuf_toBuf]
  rfl

/-- The in-degree normalisation as a column, used after the region. -/
theorem V_v12 (c : Dev nD) :
    (V m c main_v12 : S100000x1.Idx → F .f32)
      = shapeCast S100000x1 (degNorm (m ((c : Thread nD τ).loc main_arg4))) shapeCasts_S100000_S100000x1 := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  simp only [Cert.Lib.HostCalls.ofBuf_toBuf]
  rfl

/-- The region's third operand: the averaged weights as a row. -/
theorem V_v16 (c : Dev nD) :
    (V m c main_v16 : S1x128.Idx → F .f32)
      = shapeCast S1x128 (meanW (m ((c : Thread nD τ).loc main_arg1))) shapeCasts_S128_S1x128 := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  simp only [Cert.Lib.HostCalls.ofBuf_toBuf]
  rfl

/-- The averaged bias, used after the region. -/
theorem V_v18 (c : Dev nD) :
    (V m c main_v18 : S_.Idx → F .f32) = meanB (m ((c : Thread nD τ).loc main_arg2)) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

end Cert.KernelIdeal.HostValue

end
-- ==== Proof.KernelValue.lean ====
/-
  The kernel's result read at a node.

  The region's output column is the weighted row sum of the features (scaled by the out-degree normalisation)
  against the averaged weights; the host then gathers it at the edges' sources, scatter-adds at their destinations,
  scales by the in-degree normalisation and adds the averaged bias.
-/
import proofs.«155696_j90400471646753_2_alg».proof.Proof.KernelTail
import proofs.«155696_j90400471646753_2_alg».proof.Proof.KernelBlocks
import proofs.«155696_j90400471646753_2_alg».proof.Proof.KernelHost
import proofs.«155696_j90400471646753_2_alg».proof.Proof.LibEdgeScatter
import proofs.«155696_j90400471646753_2_alg».proof.Proof.LibEdgeGather
import proofs.«155696_j90400471646753_2_alg».proof.Proof.LibKeepdims
import proofs.«155696_j90400471646753_2_alg».proof.Proof.Forms

set_option maxRecDepth 16384
set_option Elab.async false

noncomputable section

namespace Cert.KernelIdeal.Tail

open Cert.KernelIdeal Cert.KernelIdeal.Gen Idealize.ShloMosaic Idealize.ShloMosaic.TcCoe Idealize.ShloMosaic.ValueIdx
open Idealize.SL.Sem Idealize.ShloMosaic.StableHlo
open Cert.KernelIdeal.Blocks Cert.KernelIdeal.HostValue Cert.GraphConv

/-- The averaged weight of input feature `k`: the sum of its 64 weights over 64. -/
theorem meanW_apply (w : FVec Ideal S128x64 .f32) (k : Fin 128) :
    meanW (F := Ideal) w (ix1 k) = Ideal.div (z + ∑ c : Fin 64, w (ix2 k c)) c64 := by
  simp only [meanW, Host.divf, Host.reduceAdd, Ideal.hostDivf_def, Ideal.hostReduceAdd_def, broadcastInDim, constant,
    Ideal.ofBits_def]
  rw [Ideal.hostReduceAdd_single reducesTo_S128x64_S128_d1 (by decide)]
  refine congrArg (fun s => Ideal.div s c64) (congrArg₂ (· + ·) rfl (Finset.sum_congr rfl fun c _ => ?_))
  exact congrArg w (funext fun a => Fin.ext (by match a with | ⟨0, _⟩ => rfl | ⟨1, _⟩ => rfl))

/-- A rank-1 index set is its one coordinate range, so a sum over it is the sum over the coordinate. -/
theorem sum_idx1 {n : Nat} (g : (⟨1, ![n]⟩ : Shape).Idx → EReal) : ∑ i, g i = ∑ a : Fin n, g (ix1 a) :=
  Fintype.sum_equiv ⟨fun i => i 0, fun a => ix1 a, fun i => (eq_ix1 i).symm, fun _ => rfl⟩ _ _
    (fun i => congrArg g (eq_ix1 i))

/-- The averaged bias: the sum of the 64 biases over 64. -/
theorem meanB_apply (b : FVec Ideal S64 .f32) (u : S_.Idx) :
    meanB (F := Ideal) b u = Ideal.div (z + ∑ c : Fin 64, b (ix1 c)) c64 := by
  simp only [meanB, Host.divf, Host.reduceAdd, Ideal.hostDivf_def, Ideal.hostReduceAdd_def, constant, Ideal.ofBits_def]
  rw [Ideal.hostReduceAdd_total reducesTo_S64_S_d0 (fun a => a.elim0)]
  exact congrArg (fun s => Ideal.div s c64) (congrArg₂ (· + ·) rfl (sum_idx1 b))

/-- The degree normalisation at a node, one operation at a time (at any float instance: only the spelling is read). -/
theorem degNorm_apply {F : FTy → Type} [FloatOps F] (x : IVec S3200000 32) (i : S100000.Idx) :
    degNorm (F := F) x i
      = FloatOps.hostUnary .rsqrt (FloatOps.maximumf (FloatOps.ofBits .f32 0x3F800000#32)
          (FloatOps.hostScatterAdd scatter_S100000_S3200000x1_S3200000_n_0_0_1 .single
            (fun _ => FloatOps.ofBits .f32 0x00000000#32) (broadcastInDim S3200000x1 ![0] bcast_S3200000_S3200000x1_0 x)
            (fun _ => FloatOps.ofBits .f32 0x3F800000#32) i)) := rfl

/-- The degree normalisation is real-valued: a count of ones clipped from below by one has a real reciprocal square root. -/
theorem degNorm_real (x : IVec S3200000 32) :
    ∃ r : (⟨1, ![100000]⟩ : Shape).Idx → ℝ, degNorm (F := Ideal) x = fun i => ((r i : ℝ) : EReal) := by
  have h : ∀ i : S100000.Idx, ∃ r : ℝ, degNorm (F := Ideal) x i = ((r : ℝ) : EReal) := fun i => by
    rw [degNorm_apply, Ideal.hostUnary_rsqrt_def, Ideal.maximumf_def, Ideal.hostScatterAdd_def]
    unfold Ideal.hostScatterAdd
    simp only [Ideal.ofBits_def]
    exact Cert.FiniteInputs.rsqrt_clip_count_real _
  choose r hr using h
  exact ⟨r, funext hr⟩

/-- The index word of edge `e` in the (row, column) pairs the gather reads: the wrapped source word. -/
theorem pair_word (x3 : IVec S3200000 32) (e : Fin 3200000) :
    concatenate S3200000x2 1
        [⟨S3200000x1, broadcastInDim S3200000x1 ![0] bcast_S3200000_S3200000x1_0 (srcWords x3)⟩,
         ⟨S3200000x1, broadcastInDim S3200000x1 ![0] bcast_S3200000_S3200000x1_0
            (id (broadcastInDim S3200000 ![] bcast_S_S3200000 (constantI S_ 32 0#32)))⟩]
        concatenates_S3200000x1_S3200000x1_S3200000x2_d1 (ix2 e (0 : Fin 2))
      = srcWords x3 (ix1 e) := by
  refine (concatenate_pair_apply_left (t := S3200000x2) (s₁ := S3200000x1) (s₂ := S3200000x1) (1 : Fin 2) _ _ _ (ix2 e (0 : Fin 2)) rfl (ix2 e (0 : Fin 1)) (fun b => ?_)).trans ?_
  · match b with
    | ⟨0, _⟩ => rfl
    | ⟨1, _⟩ => rfl
  · exact broadcastInDim_apply _ bcast_S3200000_S3200000x1_0 (srcWords x3) (ix2 e (0 : Fin 1)) (ix1 e) (fun a => match a with
      | ⟨0, _⟩ => by show e.val = if (3200000 : Nat) = 1 then 0 else e.val; rw [if_neg (by decide)])

/-- The source row of edge `e`: its wrapped source word, clamped into the node range. -/
def srcRow (x3 : IVec S3200000 32) (e : Fin 3200000) : Fin 100000 :=
  EdgeGather.clampRow 100000 (by decide) (srcWords x3 (ix1 e))

/-- The kernel's result array as one function of the five arguments: the host operations after the region applied
    to the region's output column (the weighted row sums), the in-degree normalisation and the averaged bias. -/
def kernelValue (x0 : FVec Ideal S100000x128 .f32) (x1 : FVec Ideal S128x64 .f32) (x2 : FVec Ideal S64 .f32)
    (x3 x4 : IVec S3200000 32) : FVec Ideal S100000 .f32 :=
  tailTerm x3 x4
    (rowDot x0 (shapeCast S100000x1 (degNorm (F := Ideal) x3) shapeCasts_S100000_S100000x1)
      (shapeCast S1x128 (meanW (F := Ideal) x1) shapeCasts_S128_S1x128))
    (shapeCast S100000x1 (degNorm (F := Ideal) x4) shapeCasts_S100000_S100000x1) (meanB (F := Ideal) x2)

/-- THE KERNEL'S RESULT AT NODE `n`, as a function of the five arguments. -/
theorem ker_at (x0 : FVec Ideal S100000x128 .f32) (x1 : FVec Ideal S128x64 .f32) (x2 : FVec Ideal S64 .f32)
    (x3 x4 : IVec S3200000 32) (n : Fin 100000) :
    kernelValue x0 x1 x2 x3 x4 (ix1 n)
      = kerForm x0 x1 x2 (degNorm (F := Ideal) x3) (degNorm (F := Ideal) x4)
          (EdgeScatter.landing (broadcastInDim S3200000x1 ![0] bcast_S3200000_S3200000x1_0 x4) n.val) (srcRow x3) n := by
  unfold kernelValue tailTerm kerForm
  rw [addf_apply, mulf_apply]
  refine congrArg₂ (· + ·) (congrArg₂ (· * ·) ?_ ?_) ?_
  · exact congrFun (shapeCast_shapeCast (degNorm (F := Ideal) x4) _ _) (ix1 n)
  · refine (EdgeScatter.scatterAdd_vec_apply (N := 100000) (E := 3200000) _ _ _ _ n).trans ?_
    refine congrArg₂ (· + ·) rfl (Finset.sum_congr rfl fun e _ => ?_)
    refine (EdgeGather.gather_pair_apply (N := 100000) (E := 3200000) (by decide) _ _ _ e).trans ?_
    rw [pair_word]
    show rowDot x0 _ _ (ix2 (srcRow x3 e) (0 : Fin 1)) = _
    unfold rowDot
    refine Finset.sum_congr rfl fun k _ => ?_
    refine congrArg₂ (· * ·) (congrArg₂ (· * ·) rfl ?_) ?_
    · exact Cert.Lib.Keepdims.shapeCast_a_a1_apply _ _ _ _
    · refine Eq.trans ?_ (meanW_apply x1 k)
      exact shapeCast_apply _ _ _ _ (by
        rw [Shape.rowMajor_val_two, Shape.rowMajor_val_one]
        show k.val = 0 * 128 + k.val
        omega)
  · refine (broadcastInDim_apply _ bcast_S_S100000 (meanB (F := Ideal) x2) (ix1 n) ix0 (fun a => a.elim0)).trans ?_
    exact meanB_apply x2 ix0

end Cert.KernelIdeal.Tail

end
-- ==== Proof.KernelRun.lean ====
/-
  The kernel's run, read back: its result buffer ends at `kernelValue` of the argument arrays.

  The frame run leaves the region's output array at the weighted row sums of the arrays the region found, and every
  buffer the later host operations write at what those operations compute from it. The arrays the region found are
  the host's degree normalisation and averaged weights; substituting them gives the result as a function of the
  arguments alone.
-/
import proofs.«155696_j90400471646753_2_alg».proof.Proof.KernelValue

set_option maxRecDepth 16384
set_option Elab.async false

noncomputable section

namespace Cert.KernelIdeal.Tail

open Cert.KernelIdeal Cert.KernelIdeal.Gen Idealize.ShloMosaic Idealize.ShloMosaic.TcCoe Idealize.ShloMosaic.ValueIdx
open Idealize.SL.Sem Idealize.ShloMosaic.StableHlo
open Cert.KernelIdeal.Blocks Cert.KernelIdeal.HostValue Cert.GraphConv

variable (m : (ℓ : Loc nD τ sig) → Buf (Elt Ideal) ℓ) (ρ : Dev nD → PrngReg)

/-- The region's output array after the run, as a function of the arguments. -/
theorem out_eq (c : Dev nD) :
    ((dats m 0 c).arrAt 3 cfg0.N : S100000x1.Idx → EReal)
      = rowDot (m ((c : Thread nD τ).loc main_arg0))
          (shapeCast S100000x1 (degNorm (F := Ideal) (m ((c : Thread nD τ).loc main_arg3))) shapeCasts_S100000_S100000x1)
          (shapeCast S1x128 (meanW (F := Ideal) (m ((c : Thread nD τ).loc main_arg1))) shapeCasts_S128_S1x128) := by
  rw [Blocks.final m c, V_main_arg0 m c, V_v9 m c, V_v16 m c]

/-- `tailTerm` of equal operands is equal. -/
theorem tailTerm_congr {x3 x3' x4 x4' : IVec S3200000 32} {s s' q q' : FVec Ideal S100000x1 .f32}
    {bm bm' : FVec Ideal S_ .f32} (h3 : x3 = x3') (h4 : x4 = x4') (hs : s = s') (hq : q = q') (hb : bm = bm') :
    tailTerm x3 x4 s q bm = tailTerm x3' x4' s' q' bm' := by
  rw [h3, h4, hs, hq, hb]

/-- What the host operations after the region leave in the result buffer. -/
theorem tail_eq (c : Dev nD) :
    (Pipeline.afterTail₀ cfgs (dats m) 0 (V0 m) [hostOps1] c main_v37 : S100000.Idx → EReal)
      = kernelValue (m ((c : Thread nD τ).loc main_arg0)) (m ((c : Thread nD τ).loc main_arg1))
          (m ((c : Thread nD τ).loc main_arg2)) (m ((c : Thread nD τ).loc main_arg3)) (m ((c : Thread nD τ).loc main_arg4)) := by
  unfold Pipeline.afterTail₀
  show StableHlo.after hostOps1 _ (Proc.devRef .tc main_v37) = _
  refine (after_tail _).trans ?_
  unfold kernelValue
  exact tailTerm_congr
    ((Pipeline.withArrays_of_ne _ c (V0 m c) _ main_arg3 (by exact (by decide : ∀ w, Pipeline.arrRef spec0 w ≠ main_arg3))).trans (V_main_arg3 m c))
    ((Pipeline.withArrays_of_ne _ c (V0 m c) _ main_arg4 (by exact (by decide : ∀ w, Pipeline.arrRef spec0 w ≠ main_arg4))).trans (V_main_arg4 m c))
    ((Pipeline.withArrays_arr spec0 launch0.win.arr_inj c _ _ 3).trans (out_eq m c))
    ((Pipeline.withArrays_of_ne _ c (V0 m c) _ main_v12 (by exact (by decide : ∀ w, Pipeline.arrRef spec0 w ≠ main_v12))).trans (V_v12 m c))
    ((Pipeline.withArrays_of_ne _ c (V0 m c) _ main_v18 (by exact (by decide : ∀ w, Pipeline.arrRef spec0 w ≠ main_v18))).trans (V_v18 m c))

/-- THE KERNEL'S RUN: every weakly fair execution terminates with the result buffer at `kernelValue` of the argument
    arrays and the arguments unchanged. -/
theorem run : θ_run defs (onTc (τ := τ) (main (F := Ideal))) ⟨m, fun _ => 0, ρ⟩ (fun r => ∀ c : Dev nD,
      r.2.mem ((c.tc : Thread nD τ).loc main_v37)
        = kernelValue (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
      ⟨((h c).2 main_v37 (Pipeline.mem_restRefs_of main_v37 (by decide) (by decide))).trans (tail_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c),
       ((h c).2 main_arg4 (Pipeline.mem_restRefs_of main_arg4 (by decide) (by decide))).trans (W_main_arg4 m (dats m) c)⟩)
    (run_main m ρ)

end Cert.KernelIdeal.Tail

end
-- ==== Proof.lean ====
/-
  A graph convolution with mean pooling: the kernel against its reference, over the extended reals.

  The reference computes, per node `n`, the mean over the 64 output features of
      ( Σ_{edges e into n} ((features · out_norm) · W)[src e, ·] ) · in_norm[n] + b ,
  gathering and scatter-adding 64-wide rows. The kernel uses that the mean over the features is linear: it averages
  W's columns once (one weight per input feature), lets its one region compute per node the scalar
  Σ_k (features[p, k] · out_norm[p]) · mean_c W[k, c], gathers and scatter-adds that scalar per edge, scales by
  in_norm[n] and adds the mean of b. Both programs compute the degree normalisations, wrap and clamp the source ids
  and drop out-of-range destination ids in the same way, so both results are formulas over the same pieces
  (Proof/Forms.lean), and for finite inputs the two formulas agree by the linearity of the mean
  (Proof/LibMeanAlgebra.lean): distributing the in-degree scale and the division by 64 over the sums needs every
  entry to be a real number, which the precondition gives for the features, the weights and the bias, and which holds
  of the normalisations because a clipped degree count is at least one.

  The three frames are the generated ones (the reference's is its generated run with the result dropped); the kernel
  is its own idealization, so `preserves` has nothing to state.
-/
import proofs.«155696_j90400471646753_2_alg».proof.Defs
import proofs.«155696_j90400471646753_2_alg».proof.Proof.Gen.Kernel
import proofs.«155696_j90400471646753_2_alg».proof.Proof.Gen.Kernel.Skeleton
import proofs.«155696_j90400471646753_2_alg».proof.Proof.Gen.Kernel.Launch
import proofs.«155696_j90400471646753_2_alg».proof.Proof.Gen.Kernel.Points
import proofs.«155696_j90400471646753_2_alg».proof.Proof.Gen.Kernel.Frame
import proofs.«155696_j90400471646753_2_alg».proof.Proof.Gen.KernelIdeal
import proofs.«155696_j90400471646753_2_alg».proof.Proof.Gen.KernelIdeal.Skeleton
import proofs.«155696_j90400471646753_2_alg».proof.Proof.Gen.KernelIdeal.Launch
import proofs.«155696_j90400471646753_2_alg».proof.Proof.Gen.KernelIdeal.Points
import proofs.«155696_j90400471646753_2_alg».proof.Proof.Gen.KernelIdeal.Frame
import proofs.«155696_j90400471646753_2_alg».proof.Proof.Gen.ReferenceIdeal
import proofs.«155696_j90400471646753_2_alg».proof.Proof.Gen.Pre_finite_inputs
import proofs.«155696_j90400471646753_2_alg».proof.Proof.Gen.ReferenceIdeal.Run
import proofs.«155696_j90400471646753_2_alg».proof.Proof.Gen.ReferenceIdeal.Read
import proofs.«155696_j90400471646753_2_alg».proof.Proof.RefValue
import proofs.«155696_j90400471646753_2_alg».proof.Proof.KernelRun
import Idealize.ShloMosaic.Adequacy
import Idealize.ShloMosaic.Init

set_option maxRecDepth 16384
set_option Elab.async false

noncomputable section

namespace Cert.Proof

open Idealize.ShloMosaic Idealize.ShloMosaic.ValueIdx Idealize.SL.Sem

/-! ## The two results are one function of the arguments -/

/-- The two programs spell the degree normalisation identically (stated at any float instance: only the spelling
    is compared). -/
theorem degNorm_eq_on {F : FTy → Type} [FloatOps F] (x : IVec Cert.KernelIdeal.S3200000 32) :
    Cert.ReferenceIdeal.Read.val_main_v8 (F := F) x = Cert.KernelIdeal.HostValue.degNorm (F := F) x := rfl

theorem degNorm_eq_in {F : FTy → Type} [FloatOps F] (x : IVec Cert.KernelIdeal.S3200000 32) :
    Cert.ReferenceIdeal.Read.val_main_v10 (F := F) x = Cert.KernelIdeal.HostValue.degNorm (F := F) x := rfl

/-- … and the wrapped source words, … -/
theorem srcWords_eq {F : FTy → Type} [FloatOps F] (x : IVec Cert.KernelIdeal.S3200000 32) :
    Cert.ReferenceIdeal.Read.val_main_v19 (F := F) x = Cert.KernelIdeal.Tail.srcWords x := rfl

/-- … and the destination ids as a column of scatter indices. -/
theorem dstCol_eq {F : FTy → Type} [FloatOps F] (x : IVec Cert.KernelIdeal.S3200000 32) :
    Cert.ReferenceIdeal.Read.val_main_v23 (F := F) x
      = broadcastInDim Cert.KernelIdeal.S3200000x1 ![0] Cert.KernelIdeal.Gen.bcast_S3200000_S3200000x1_0 x := rfl

/-- For real-valued features, weights and bias the kernel's result array is the reference's: node by node both are the
    formulas of Proof/Forms.lean over the same degree normalisations, landing sets and source rows (the two programs
    spell those pieces identically), and the formulas agree because the mean is linear. -/
theorem result_eq (x0 : FVec Ideal Cert.KernelIdeal.S100000x128 .f32) (x1 : FVec Ideal Cert.KernelIdeal.S128x64 .f32)
    (x2 : FVec Ideal Cert.KernelIdeal.S64 .f32) (x3 x4 : IVec Cert.KernelIdeal.S3200000 32)
    (h0 : ∃ f : Cert.KernelIdeal.S100000x128.Idx → ℝ, x0 = fun i => ((f i : ℝ) : EReal))
    (h1 : ∃ g : Cert.KernelIdeal.S128x64.Idx → ℝ, x1 = fun i => ((g i : ℝ) : EReal))
    (h2 : ∃ b : Cert.KernelIdeal.S64.Idx → ℝ, x2 = fun i => ((b i : ℝ) : EReal)) :
    Cert.KernelIdeal.Tail.kernelValue x0 x1 x2 x3 x4
      = Cert.ReferenceIdeal.Read.val_main_v33 (F := Ideal) x0 x1 x2 x3 x4 := by
  funext i
  obtain ⟨n, rfl⟩ : ∃ n : Fin 100000, i = ix1 n := ⟨i 0, eq_ix1 i⟩
  rw [Cert.KernelIdeal.Tail.ker_at, Cert.ReferenceIdeal.RefValue.ref_at]
  have e4 : Cert.ReferenceIdeal.RefValue.srcRow x3 = Cert.KernelIdeal.Tail.srcRow x3 := by
    funext e
    unfold Cert.ReferenceIdeal.RefValue.srcRow Cert.KernelIdeal.Tail.srcRow
    rw [srcWords_eq]
  rw [degNorm_eq_on, degNorm_eq_in, dstCol_eq, e4]
  exact (Cert.GraphConv.forms_eq x0 x1 x2 _ _ _ _ n h0 h1 h2 (Cert.KernelIdeal.Tail.degNorm_real x3)
    (Cert.KernelIdeal.Tail.degNorm_real x4)).symm

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel is its own idealization: no rewrite was applied, nothing to preserve. -/
theorem preserves : Cert.preserves_Kernel_KernelIdeal := trivial

/-- Both programs run from memories agreeing on the arguments and end with equal results: the reference's value of the
    arguments, which under the precondition is the kernel's (`result_eq`). -/
theorem algebraic : Cert.algebraic_KernelIdeal_ReferenceIdeal := by
  intro m ρ m' ρ' hpre hagree
  refine ⟨fun c => Cert.ReferenceIdeal.Read.val_main_v33 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩)
      (Cert.KernelIdeal.Tail.run m ρ)
    obtain ⟨h0, h1, h2⟩ := Cert.FiniteInputs.real_of_pre _ _ _ _ _ (hpre c)
    exact result_eq _ _ _ _ _ h0 h1 h2
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    exact Cert.ReferenceIdeal.Read.val_main_v33_eq _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
